-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1024 : Shape := ⟨2, ![32768, 1024]⟩
abbrev S64x1024x2048 : Shape := ⟨3, ![64, 1024, 2048]⟩
abbrev S64x2048x1024 : Shape := ⟨3, ![64, 2048, 1024]⟩
abbrev S_ : Shape := ⟨0, ![]⟩

class Facts : Prop where
  bcast_S_S32768x1024 : S_.BroadcastsInDim S32768x1024 (![] : Fin 0 → Fin S32768x1024.rank)
  reducesTo_S32768x1024_S_d0_1 : S32768x1024.ReducesTo [0, 1] S_
  h_S_ : 0 < S_.numel
  bcast_S_S64x1024x2048 : S_.BroadcastsInDim S64x1024x2048 (![] : Fin 0 → Fin S64x1024x2048.rank)
  reducesTo_S64x1024x2048_S_d0_1_2 : S64x1024x2048.ReducesTo [0, 1, 2] S_
  bcast_S_S64x2048x1024 : S_.BroadcastsInDim S64x2048x1024 (![] : Fin 0 → Fin S64x2048x1024.rank)
  reducesTo_S64x2048x1024_S_d0_1_2 : S64x2048x1024.ReducesTo [0, 1, 2] S_

variable [Facts]

def fn {F : FTy → Type} [FloatOps F] (main_arg0 : FVec F S32768x1024 .f32) (main_arg1 : FVec F S64x1024x2048 .f32) (main_arg2 : FVec F S64x2048x1024 .f32) : IVec S_ 1 :=
  let main_v0 : FVec F S32768x1024 .f32 := Host.absf main_arg0
  let main_cst : FVec F S_ .f32 := constant S_ .f32 0x7F800000#32
  let main_v1 : FVec F S32768x1024 .f32 := broadcastInDim S32768x1024 ![] bcast_S_S32768x1024 main_cst
  let main_v2 : IVec S32768x1024 1 := cmpf .olt main_v0 main_v1
  let main_c : IVec S_ 1 := constantI S_ 1 1#1
  let main_v3 : IVec S_ 1 := (fun x v => Host.reduce IntOp.andi x v reducesTo_S32768x1024_S_d0_1 h_S_) main_v2 main_c
  let main_v4 : FVec F S64x1024x2048 .f32 := Host.absf main_arg1
  let main_cst_0 : FVec F S_ .f32 := constant S_ .f32 0x7F800000#32
  let main_v5 : FVec F S64x1024x2048 .f32 := broadcastInDim S64x1024x2048 ![] bcast_S_S64x1024x2048 main_cst_0
  let main_v6 : IVec S64x1024x2048 1 := cmpf .olt main_v4 main_v5
  let main_c_1 : IVec S_ 1 := constantI S_ 1 1#1
  let main_v7 : IVec S_ 1 := (fun x v => Host.reduce IntOp.andi x v reducesTo_S64x1024x2048_S_d0_1_2 h_S_) main_v6 main_c_1
  let main_v8 : IVec S_ 1 := andi main_v3 main_v7
  let main_v9 : FVec F S64x2048x1024 .f32 := Host.absf main_arg2
  let main_cst_2 : FVec F S_ .f32 := constant S_ .f32 0x7F800000#32
  let main_v10 : FVec F S64x2048x1024 .f32 := broadcastInDim S64x2048x1024 ![] bcast_S_S64x2048x1024 main_cst_2
  let main_v11 : IVec S64x2048x1024 1 := cmpf .olt main_v9 main_v10
  let main_c_3 : IVec S_ 1 := constantI S_ 1 1#1
  let main_v12 : IVec S_ 1 := (fun x v => Host.reduce IntOp.andi x v reducesTo_S64x2048x1024_S_d0_1_2 h_S_) main_v11 main_c_3
  let main_v13 : IVec S_ 1 := andi main_v8 main_v12
  main_v13
-- ==== Kernel.lean ====
abbrev S32768x1024 : Shape := ⟨2, ![32768, 1024]⟩
abbrev S64x1024x2048 : Shape := ⟨3, ![64, 1024, 2048]⟩
abbrev S64x2048x1024 : Shape := ⟨3, ![64, 2048, 1024]⟩
abbrev S64x512x1024 : Shape := ⟨3, ![64, 512, 1024]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩
abbrev S1x256x1024 : Shape := ⟨3, ![1, 256, 1024]⟩
abbrev S256x1024 : Shape := ⟨2, ![256, 1024]⟩

abbrev nBuf : Space → Nat
  | .hbm => 6
  | .vmem => 9
  | .smem => 0
  | _ => 0

abbrev bufTy : (tb : Table) → Fin (tcTables nBuf tb) → BufTy
  | .hbm, ⟨0, _⟩ => ⟨S32768x1024, .f32⟩
  | .hbm, ⟨1, _⟩ => ⟨S64x1024x2048, .f32⟩
  | .hbm, ⟨2, _⟩ => ⟨S64x2048x1024, .f32⟩
  | .hbm, ⟨3, _⟩ => ⟨S64x512x1024, .f32⟩
  | .hbm, ⟨4, _⟩ => ⟨S64x512x1024, .f32⟩
  | .hbm, ⟨5, _⟩ => ⟨S32768x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x512x1024, .f32⟩
  | .local _ .vmem, ⟨7, _⟩ => ⟨S1x512x1024, .f32⟩
  | .local _ .vmem, ⟨8, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![64, 2], ![false, false]⟩

def k0_mult1 : BitVec 32 :=
  let c0_i32_6 : BitVec 32 := 0#32
  let c256_i32 : BitVec 32 := 256#32
  let v9 : BitVec 32 := Scalar.muli c0_i32_6 c256_i32
  v9
def k0_off1 (c0_i32_6 : BitVec 32) : Fin 3 → Nat :=
  let c0_7 : Index := 0#32
  let c256_i32 : BitVec 32 := 256#32
  let v9 : BitVec 32 := Scalar.muli c0_i32_6 c256_i32
  let v10 : BitVec 32 := v9
  let v11 : Index := Scalar.indexCast v10
  let c0_8 : Index := 0#32
  ![0, v11.toNat, 0]
def k0_off2 (c0_i32_6 : BitVec 32) : Fin 2 → Nat :=
  let c256_i32 : BitVec 32 := 256#32
  let v9 : BitVec 32 := Scalar.muli c0_i32_6 c256_i32
  let v10 : BitVec 32 := v9
  let v31 : Index := Scalar.indexCast v10
  let c0_14 : Index := 0#32
  ![v31.toNat, 0]
def k0_mult2 : BitVec 32 :=
  let c1_i32 : BitVec 32 := 1#32
  let c256_i32_16 : BitVec 32 := 256#32
  let v38 : BitVec 32 := Scalar.muli c1_i32 c256_i32_16
  v38
def k0_cond2 (i : grid0.Coords) : BitVec 1 :=
  let arg1 : BitVec 32 := BitVec.ofNat 32 (i 1).val
  let c1_i32_27 : BitVec 32 := 1#32
  let v67 : BitVec 1 := Scalar.cmpi .eq arg1 c1_i32_27
  let v68 : BitVec 32 := Scalar.extui v67
  let c0_i32_28 : BitVec 32 := 0#32
  let v69 : BitVec 1 := Scalar.cmpi .ne v68 c0_i32_28
  v69

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S32768x1024_S64x512x1024 : S32768x1024.ShapeCasts S64x512x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  h_S1x256x1024 : 0 < S1x256x1024.numel
  shapeCasts_S1x256x1024_S256x1024 : S1x256x1024.ShapeCasts S256x1024
  h_S256x1024 : 0 < S256x1024.numel
  shapeCasts_S256x1024_S256x1024 : S256x1024.ShapeCasts S256x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S512x1024_S1x512x1024 : S512x1024.ShapeCasts S1x512x1024
  shapeCasts_S64x512x1024_S32768x1024 : S64x512x1024.ShapeCasts S32768x1024
  dot_S256x1024_S1024x1024_S256x1024_1_0_0_1_n_n_wf : DotDims.WF S256x1024 S1024x1024 S256x1024 [1] [0] [0] [1] [] []
  hrank0 : 0 < grid0.rank
  k0_mult1_dvd : 256 ∣ k0_mult1.toNat
  k0_off1_inb : ∀ (r : Fin 2), ∀ a, (k0_off1 (BitVec.ofNat 32 r.val)) a + S1x256x1024.size a ≤ S1x512x1024.size a
  k0_off2_inb : ∀ (r : Fin 2), ∀ a, (k0_off2 (BitVec.ofNat 32 r.val)) a + S256x1024.size a ≤ S512x1024.size a
  k0_mult2_dvd : 256 ∣ k0_mult2.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S64x1024x2048.size a
  hwx0_1 : ∀ i : grid0.Coords, EltTy.bits .f32 = 32 ∨ (Rect.block (s := S64x1024x2048) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S64x2048x1024.size a
  hwx0_2 : ∀ i : grid0.Coords, EltTy.bits .f32 = 32 ∨ (Rect.block (s := S64x2048x1024) S1x1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S64x512x1024.size a
  hwx0_3 : ∀ i : grid0.Coords, EltTy.bits .f32 = 32 ∨ (Rect.block (s := S64x512x1024) S1x512x1024.size (cc0_transform_3 i) (hinb0_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S32768x1024 : Shape := ⟨2, ![32768, 1024]⟩
abbrev S64x1024x2048 : Shape := ⟨3, ![64, 1024, 2048]⟩
abbrev S64x2048x1024 : Shape := ⟨3, ![64, 2048, 1024]⟩
abbrev S64x512x1024 : Shape := ⟨3, ![64, 512, 1024]⟩
abbrev S64x512x2048 : Shape := ⟨3, ![64, 512, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S64x1024x2048, .f32⟩
  | .hbm, ⟨2, _⟩ => ⟨S64x2048x1024, .f32⟩
  | .hbm, ⟨3, _⟩ => ⟨S64x512x1024, .f32⟩
  | .hbm, ⟨4, _⟩ => ⟨S64x512x2048, .f32⟩
  | .hbm, ⟨5, _⟩ => ⟨S64x512x2048, .f32⟩
  | .hbm, ⟨6, _⟩ => ⟨S64x512x2048, .f32⟩
  | .hbm, ⟨7, _⟩ => ⟨S_, .f32⟩
  | .hbm, ⟨8, _⟩ => ⟨S64x512x2048, .f32⟩
  | .hbm, ⟨9, _⟩ => ⟨S64x512x2048, .f32⟩
  | .hbm, ⟨10, _⟩ => ⟨S64x512x2048, .f32⟩
  | .hbm, ⟨11, _⟩ => ⟨S_, .f32⟩
  | .hbm, ⟨12, _⟩ => ⟨S64x512x2048, .f32⟩
  | .hbm, ⟨13, _⟩ => ⟨S64x512x2048, .f32⟩
  | .hbm, ⟨14, _⟩ => ⟨S64x512x2048, .f32⟩
  | .hbm, ⟨15, _⟩ => ⟨S_, .f32⟩
  | .hbm, ⟨16, _⟩ => ⟨S64x512x2048, .f32⟩
  | .hbm, ⟨17, _⟩ => ⟨S64x512x2048, .f32⟩
  | .hbm, ⟨18, _⟩ => ⟨S_, .f32⟩
  | .hbm, ⟨19, _⟩ => ⟨S64x512x2048, .f32⟩
  | .hbm, ⟨20, _⟩ => ⟨S64x512x2048, .f32⟩
  | .hbm, ⟨21, _⟩ => ⟨S64x512x2048, .f32⟩
  | .hbm, ⟨22, _⟩ => ⟨S64x512x1024, .f32⟩
  | .hbm, ⟨23, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  shapeCasts_S32768x1024_S64x512x1024 : S32768x1024.ShapeCasts S64x512x1024
  bcast_S_S64x512x2048 : S_.BroadcastsInDim S64x512x2048 (![] : Fin 0 → Fin S64x512x2048.rank)
  shapeCasts_S64x512x1024_S32768x1024 : S64x512x1024.ShapeCasts S32768x1024
  dot_S64x512x1024_S64x1024x2048_S64x512x2048_2_1_1_2_0_0_wf : DotDims.WF S64x512x1024 S64x1024x2048 S64x512x2048 [2] [1] [1] [2] [0] [0]
  dot_S64x512x2048_S64x2048x1024_S64x512x1024_2_1_1_2_0_0_wf : DotDims.WF S64x512x2048 S64x2048x1024 S64x512x1024 [2] [1] [1] [2] [0] [0]

variable [Facts₀]

def dot_S64x512x1024_S64x1024x2048_S64x512x2048_2_1_1_2_0_0 : DotDims S64x512x1024 S64x1024x2048 S64x512x2048 where
  lhsContracting := [2]
  rhsContracting := [1]
  lhsNonContracting := [1]
  rhsNonContracting := [2]
  lhsBatch := [0]
  rhsBatch := [0]
  wf := dot_S64x512x1024_S64x1024x2048_S64x512x2048_2_1_1_2_0_0_wf
def dot_S64x512x2048_S64x2048x1024_S64x512x1024_2_1_1_2_0_0 : DotDims S64x512x2048 S64x2048x1024 S64x512x1024 where
  lhsContracting := [2]
  rhsContracting := [1]
  lhsNonContracting := [1]
  rhsNonContracting := [2]
  lhsBatch := [0]
  rhsBatch := [0]
  wf := dot_S64x512x2048_S64x2048x1024_S64x512x1024_2_1_1_2_0_0_wf

class Facts : Prop extends Facts₀ where

variable [Facts]
-- ==== Proof.Spec.lean ====
/-
  The grouped feed-forward layer on the extended reals, stated with no program in sight.

  Sixty-four experts each own 512 consecutive rows of the token matrix.  Expert `e` sends its rows
  `x[e] : 512 × 1024` through `w1[e] : 1024 × 2048`, applies the tanh form of GELU entry by entry, and
  multiplies by `w2[e] : 2048 × 1024`:

      out[e, r, q] = Σ_{j < 2048} act (Σ_{d < 1024} x[e, r, d] · w1[e, d, j]) · w2[e, j, q].

  The hidden axis of 2048 columns is cut in two tiles of 1024; a tile's share of an output entry is `half`,
  and an output entry is the zero word plus the first tile's share plus the second's (`out`), which is the
  single sum over all 2048 columns (`out_eq_sum`: a sum over `Fin 2048` splits at 1024, in any commutative
  monoid, so no finiteness is asked of the entries).  `tile` is one tile's share written over the three
  blocks a grid step holds: a `1 × 512 × 1024` block of `x` and two `1 × 1024 × 1024` blocks of the weights.
-/
import Idealize.ShloMosaic.PureOps.Ideal.Laws
import Idealize.ShloMosaic.Lib.ValueIdx

noncomputable section

namespace Cert.Ffn

open Idealize.ShloMosaic Idealize.ShloMosaic.ValueIdx

/-- GELU in its tanh form, `h · (½ · (1 + tanh (c₀ · (h + c₁ · h³))))`, the four constants kept as the binary
    words both programs carry (½, 1, `0.797884583`, `0.044715`): the same words on both sides are never evaluated. -/
def act (h : EReal) : EReal :=
  h * (Ideal.ofBits .f32 0x3F000000#32 * (Ideal.ofBits .f32 0x3F800000#32
    + Ideal.tanh (Ideal.ofBits .f32 0x3F4C422A#32 * (h + Ideal.ofBits .f32 0x3D372713#32 * (h * (h * h))))))

/-- The cube grouped the other way, `(h · h) · h`, gives the same activation: multiplication of extended reals
    is associative. -/
theorem act_cube_left (h : EReal) :
    h * (Ideal.ofBits .f32 0x3F000000#32 * (Ideal.ofBits .f32 0x3F800000#32
      + Ideal.tanh (Ideal.ofBits .f32 0x3F4C422A#32 * (h + Ideal.ofBits .f32 0x3D372713#32 * (h * h * h))))) = act h := by
  unfold act; rw [mul_assoc h h h]

/-- One weight tile's share of row `r`, column `q` of an expert's output block, over the blocks a grid step holds:
    `Σ_k act (Σ_d x[0, r, d] · w1[0, d, k]) · w2[0, k, q]`. -/
def tile (x : (⟨3, ![1, 512, 1024]⟩ : Shape).Idx → EReal) (w1 w2 : (⟨3, ![1, 1024, 1024]⟩ : Shape).Idx → EReal)
    (r : Fin 512) (q : Fin 1024) : EReal :=
  ∑ k : Fin 1024, act (∑ d : Fin 1024, x (ix3 (0 : Fin 1) r d) * w1 (ix3 (0 : Fin 1) d k)) * w2 (ix3 (0 : Fin 1) k q)

/-- The hidden pre-activation of expert `e`, row `r`, hidden column `j`. -/
def hidden (x : (⟨3, ![64, 512, 1024]⟩ : Shape).Idx → EReal) (w1 : (⟨3, ![64, 1024, 2048]⟩ : Shape).Idx → EReal)
    (e : Fin 64) (r : Fin 512) (j : Fin 2048) : EReal :=
  ∑ d : Fin 1024, x (ix3 e r d) * w1 (ix3 e d j)

/-- Hidden column `k` of tile `f`: column `1024 f + k` of the 2048. -/
def col (f : Fin 2) (k : Fin 1024) : Fin 2048 := ⟨f.val * 1024 + k.val, by have := f.isLt; have := k.isLt; omega⟩

/-- Tile `f`'s share of output entry `(e, r, q)`. -/
def half (x : (⟨3, ![64, 512, 1024]⟩ : Shape).Idx → EReal) (w1 : (⟨3, ![64, 1024, 2048]⟩ : Shape).Idx → EReal)
    (w2 : (⟨3, ![64, 2048, 1024]⟩ : Shape).Idx → EReal) (f : Fin 2) (e : Fin 64) (r : Fin 512) (q : Fin 1024) : EReal :=
  ∑ k : Fin 1024, act (hidden x w1 e r (col f k)) * w2 (ix3 e (col f k) q)

/-- Output entry `(e, r, q)` as the two tiles leave it: the zero word, plus tile 0's share, plus tile 1's. -/
def outAt (x : (⟨3, ![64, 512, 1024]⟩ : Shape).Idx → EReal) (w1 : (⟨3, ![64, 1024, 2048]⟩ : Shape).Idx → EReal)
    (w2 : (⟨3, ![64, 2048, 1024]⟩ : Shape).Idx → EReal) (e : Fin 64) (r : Fin 512) (q : Fin 1024) : EReal :=
  (Ideal.ofBits .f32 0x00000000#32 + half x w1 w2 0 e r q) + half x w1 w2 1 e r q

/-- The whole output array. -/
def out (x : (⟨3, ![64, 512, 1024]⟩ : Shape).Idx → EReal) (w1 : (⟨3, ![64, 1024, 2048]⟩ : Shape).Idx → EReal)
    (w2 : (⟨3, ![64, 2048, 1024]⟩ : Shape).Idx → EReal) : (⟨3, ![64, 512, 1024]⟩ : Shape).Idx → EReal :=
  fun i => outAt x w1 w2 (i 0) (i 1) (i 2)

theorem out_ix3 (x : (⟨3, ![64, 512, 1024]⟩ : Shape).Idx → EReal) (w1 : (⟨3, ![64, 1024, 2048]⟩ : Shape).Idx → EReal)
    (w2 : (⟨3, ![64, 2048, 1024]⟩ : Shape).Idx → EReal) (e : Fin 64) (r : Fin 512) (q : Fin 1024) :
    out x w1 w2 (ix3 e r q) = outAt x w1 w2 e r q := rfl

/-- A sum over the 2048 hidden columns is the sum over tile 0's columns plus the sum over tile 1's. -/
theorem sum_two_tiles {M : Type*} [AddCommMonoid M] (g : Fin 2048 → M) :
    ∑ j : Fin 2048, g j = ∑ k : Fin 1024, g (col 0 k) + ∑ k : Fin 1024, g (col 1 k) := by
  have h := Fin.sum_univ_add (a := 1024) (b := 1024) (f := g)
  refine h.trans ?_
  refine congrArg₂ (· + ·) (Finset.sum_congr rfl fun k _ => congrArg g (Fin.ext ?_))
    (Finset.sum_congr rfl fun k _ => congrArg g (Fin.ext ?_))
  · show k.val = 0 * 1024 + k.val; omega
  · show 1024 + k.val = 1 * 1024 + k.val; omega

/-- So an output entry is the one sum over all 2048 hidden columns. -/
theorem outAt_eq_sum (x : (⟨3, ![64, 512, 1024]⟩ : Shape).Idx → EReal) (w1 : (⟨3, ![64, 1024, 2048]⟩ : Shape).Idx → EReal)
    (w2 : (⟨3, ![64, 2048, 1024]⟩ : Shape).Idx → EReal) (e : Fin 64) (r : Fin 512) (q : Fin 1024) :
    outAt x w1 w2 e r q = ∑ j : Fin 2048, act (hidden x w1 e r j) * w2 (ix3 e j q) := by
  unfold outAt half
  rw [Ideal.ofBits_zero_f32, zero_add, sum_two_tiles fun j => act (hidden x w1 e r j) * w2 (ix3 e j q)]

end Cert.Ffn

end
-- ==== Proof.Tile.lean ====
/-
  The arithmetic of one grid step, read entry by entry on the extended reals.

  A step multiplies a 256-row slab of the expert's token block by the step's tile of the first weight
  (a plain `[256,1024] × [1024,1024]` product into a zero accumulator: entry `(r, k)` is `Σ_d a[r,d] · b[d,k]`,
  `matmul_at`), applies the activation entry by entry, multiplies by the step's tile of the second weight, and adds the
  product to what the accumulator held.  The roundings to the narrower float format on the way into the two products
  are the identity on extended reals.  `slab_apply` says this of the first slab's value, `slab'_apply` of the second's
  (the same operations on the other 256 rows), both over arbitrary blocks; the remaining payloads only re-label axes
  (`relabel_apply`, `zeros_apply`, `same_apply`).
-/
import proofs.«149833_j9139690406408_2_alg».proof.Proof.Gen.KernelIdeal.Skeleton
import proofs.«149833_j9139690406408_2_alg».proof.Proof.Spec
import Idealize.ShloMosaic.Lib.ValueLayout
import Idealize.ShloMosaic.PureOps.Ideal.Laws

noncomputable section

namespace Cert.KernelIdeal.Tile

open Cert.KernelIdeal Cert.KernelIdeal.Gen Idealize.ShloMosaic Idealize.ShloMosaic.ValueIdx

/-- The product's operand indices, coordinate by coordinate: at output entry `j` and contraction index `k` the left
    operand is read at `(j₀, k)` and the right at `(k, j₁)`. -/
theorem lhs_0 (j : S256x1024.Idx) (k : dot_S256x1024_S1024x1024_S256x1024_1_0_0_1_n_n.contr.Idx) : (dot_S256x1024_S1024x1024_S256x1024_1_0_0_1_n_n.lhsIdx j k 0).val = (j 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_1 (j : S256x1024.Idx) (k : dot_S256x1024_S1024x1024_S256x1024_1_0_0_1_n_n.contr.Idx) : (dot_S256x1024_S1024x1024_S256x1024_1_0_0_1_n_n.lhsIdx j k 1).val = (k ⟨0, by decide⟩).val :=
  dot_S256x1024_S1024x1024_S256x1024_1_0_0_1_n_n.lhsIdx_val_of_single rfl j k
theorem rhs_0 (j : S256x1024.Idx) (k : dot_S256x1024_S1024x1024_S256x1024_1_0_0_1_n_n.contr.Idx) : (dot_S256x1024_S1024x1024_S256x1024_1_0_0_1_n_n.rhsIdx j k 0).val = (k ⟨0, by decide⟩).val :=
  dot_S256x1024_S1024x1024_S256x1024_1_0_0_1_n_n.rhsIdx_val_of_single rfl j k
theorem rhs_1 (j : S256x1024.Idx) (k : dot_S256x1024_S1024x1024_S256x1024_1_0_0_1_n_n.contr.Idx) : (dot_S256x1024_S1024x1024_S256x1024_1_0_0_1_n_n.rhsIdx j k 1).val = (j 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- Entry `(r, q)` of the plain product of a `256 × 1024` and a `1024 × 1024` matrix accumulated into zeros is
    `Σ_k a[r,k] · b[k,q]`: the contraction runs over the one shared axis. -/
theorem matmul_at {φ₁ φ₂ : FTy} (A : FVec Ideal S256x1024 φ₁) (B : FVec Ideal S1024x1024 φ₂) (r : Fin 256) (q : Fin 1024) :
    matmul dot_S256x1024_S1024x1024_S256x1024_1_0_0_1_n_n none A B (constant S256x1024 .f32 0x00000000#32) (ix2 r q)
      = ∑ k : Fin 1024, A (ix2 r k) * B (ix2 k q) := by
  refine (Ideal.matmul_constant_zero_apply dot_S256x1024_S1024x1024_S256x1024_1_0_0_1_n_n none A B (ix2 r q)).trans ?_
  rw [← Equiv.sum_comp (contrEquiv1 dot_S256x1024_S1024x1024_S256x1024_1_0_0_1_n_n 1024 rfl rfl).symm]
  refine Finset.sum_congr rfl fun k _ => ?_
  have hk := contrEquiv1_symm_val dot_S256x1024_S1024x1024_S256x1024_1_0_0_1_n_n 1024 rfl rfl k
  have el : dot_S256x1024_S1024x1024_S256x1024_1_0_0_1_n_n.lhsIdx (ix2 r q) ((contrEquiv1 dot_S256x1024_S1024x1024_S256x1024_1_0_0_1_n_n 1024 rfl rfl).symm k) = ix2 r k := funext fun a => Fin.ext (by
    match a with
    | ⟨0, _⟩ => exact lhs_0 _ _
    | ⟨1, _⟩ => exact (lhs_1 _ _).trans hk)
  have er : dot_S256x1024_S1024x1024_S256x1024_1_0_0_1_n_n.rhsIdx (ix2 r q) ((contrEquiv1 dot_S256x1024_S1024x1024_S256x1024_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-- The activation as the step computes it on a whole slab, read at one entry: the rounding on the way out is the
    identity and every operation acts entry by entry. -/
theorem act_at (v : FVec Ideal S256x1024 .f32) (j : S256x1024.Idx) :
    (truncf .bf16 (mulf v (mulf (broadcast S256x1024 (Scalar.ofBits .f32 0x3F000000#32))
      (addf (broadcast S256x1024 (Scalar.ofBits .f32 0x3F800000#32))
        (tanh (mulf (broadcast S256x1024 (Scalar.ofBits .f32 0x3F4C422A#32))
          (addf v (mulf (broadcast S256x1024 (Scalar.ofBits .f32 0x3D372713#32)) (mulf v (mulf v v))))))))) bitsLt_bf16_f32
        : FVec Ideal S256x1024 .bf16) j = Ffn.act (v j) := rfl

/-- The first weight tile times a slab of token rows, at `(r, k)`. -/
theorem hidden_at (w1 : Vec Ideal S1x1024x1024 .f32) (x : Vec Ideal S1x256x1024 .f32) (r : Fin 256) (k : Fin 1024) :
    matmul dot_S256x1024_S1024x1024_S256x1024_1_0_0_1_n_n none (truncf .bf16 (shapeCast S256x1024 x shapeCasts_S1x256x1024_S256x1024 : FVec Ideal S256x1024 .f32) bitsLt_bf16_f32)
        (truncf .bf16 (shapeCast S1024x1024 w1 shapeCasts_S1x1024x1024_S1024x1024 : FVec Ideal S1024x1024 .f32) bitsLt_bf16_f32)
        (constant S256x1024 .f32 0x00000000#32) (ix2 r k)
      = ∑ d : Fin 1024, x (ix3 (0 : Fin 1) r d) * w1 (ix3 (0 : Fin 1) d k) :=
  (matmul_at _ _ r k).trans (Finset.sum_congr rfl fun d _ =>
    congrArg₂ (· * ·) (shapeCast_1ab_ab_apply x _ r d) (shapeCast_1ab_ab_apply w1 _ d k))

/-- The first slab's new accumulator value at `(r, q)`: what the accumulator held there plus
    `Σ_k act (Σ_d x[0,r,d] · w1[0,d,k]) · w2[0,k,q]`, over the slab `x` of token rows and the two weight tiles. -/
theorem slab_apply (w1 w2 : Vec Ideal S1x1024x1024 .f32) (x : Vec Ideal S1x256x1024 .f32) (acc : Vec Ideal S256x1024 .f32)
    (r : Fin 256) (q : Fin 1024) :
    k0_pay7 w1 w2 x acc (ix2 r q)
      = acc (ix2 r q) + ∑ k : Fin 1024, Ffn.act (∑ d : Fin 1024, x (ix3 (0 : Fin 1) r d) * w1 (ix3 (0 : Fin 1) d k)) * w2 (ix3 (0 : Fin 1) k q) := by
  unfold k0_pay7 k0_pay5 k0_pay6
  dsimp only
  refine congrArg (acc (ix2 r q) + ·) ?_
  refine (matmul_at _ _ r q).trans ?_
  refine Finset.sum_congr rfl fun k _ => ?_
  refine congrArg₂ (· * ·) ?_ (shapeCast_1ab_ab_apply w2 _ k q)
  exact (act_at _ (ix2 r k)).trans (congrArg Ffn.act (hidden_at w1 x r k))

/-- The second slab's new accumulator value: the same arithmetic, the weight tiles already rounded for the products. -/
theorem slab'_apply (w1 w2 : Vec Ideal S1x1024x1024 .f32) (x : Vec Ideal S1x256x1024 .f32) (acc : Vec Ideal S256x1024 .f32)
    (r : Fin 256) (q : Fin 1024) :
    k0_pay2 (k0_pay5 w1) (k0_pay6 w2) x acc (ix2 r q)
      = acc (ix2 r q) + ∑ k : Fin 1024, Ffn.act (∑ d : Fin 1024, x (ix3 (0 : Fin 1) r d) * w1 (ix3 (0 : Fin 1) d k)) * w2 (ix3 (0 : Fin 1) k q) := by
  unfold k0_pay2 k0_pay5 k0_pay6
  dsimp only
  rw [shapeCast_self]
  refine congrArg (acc (ix2 r q) + ·) ?_
  refine (matmul_at _ _ r q).trans ?_
  refine Finset.sum_congr rfl fun k _ => ?_
  refine congrArg₂ (· * ·) ?_ (shapeCast_1ab_ab_apply w2 _ k q)
  exact (act_at _ (ix2 r k)).trans (congrArg Ffn.act (hidden_at w1 x r k))

/-- Storing a slab back re-labels nothing. -/
theorem same_apply (v : FVec Ideal S256x1024 .f32) : k0_pay1 v = v := by
  unfold k0_pay1; exact shapeCast_self v _

/-- The reset value of the accumulator is the zero word everywhere. -/
theorem zeros_apply (y : S512x1024.Idx) : k0_pay4 (F := Ideal) y = Ideal.ofBits .f32 0x00000000#32 := by
  unfold k0_pay4
  rw [shapeCast_self]
  rfl

/-- Copying the accumulator into the output block only adds the block's leading unit axis. -/
theorem relabel_apply (v : Vec Ideal S512x1024 .f32) (u : Fin 1) (r : Fin 512) (q : Fin 1024) :
    k0_pay3 v (ix3 u r q) = v (ix2 r q) := by
  unfold k0_pay3
  exact shapeCast_ab_1ab_apply v _ u r q

end Cert.KernelIdeal.Tile

end
-- ==== Proof.Pieces.lean ====
/-
  What one grid step leaves in the accumulator and in the output block, entry by entry.

  The accumulator is a `512 × 1024` buffer the step updates as two slabs of 256 rows: rows 0–255, then rows 256–511.
  Each slab's new value is what the slab held plus the step's tile share `Ffn.tile` of the same rows
  (`lower_eval`, `upper_eval`: the slab of token rows the product reads is rows `r` or `256 + r` of the block).
  A buffer whose last two stores were those two slabs reads, at row `r`, the lower slab's value when `r < 256` and the
  upper slab's at `r − 256` otherwise, whatever was stored before (`canon_slabs`).

  * A step that first resets the accumulator (the first weight tile of an expert) therefore leaves
    `0 + tile` everywhere: each slab found the zero word where it read (`scratch_first`).
  * A step that finds the accumulator at `s` leaves `s + tile` (`scratch_next`), and, when it is the expert's last
    tile, copies exactly that into the output block, whose leading axis has one entry (`out_next`).
-/
import proofs.«149833_j9139690406408_2_alg».proof.Proof.Gen.KernelIdeal.Frame
import proofs.«149833_j9139690406408_2_alg».proof.Proof.Tile
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.ValueIdx Idealize.SL.Sem

/-- Row `r` of the lower slab, and row `r` of the upper slab, as rows of the 512. -/
abbrev lo (r : Fin 256) : Fin 512 := ⟨r.val, by omega⟩
abbrev hi (r : Fin 256) : Fin 512 := ⟨256 + r.val, by omega⟩

theorem hz2 : (![0, 0] : Fin 2 → Nat) = fun _ => 0 := funext fun a => by fin_cases a <;> rfl
theorem hz3 : (![0, 0, 0] : Fin 3 → Nat) = fun _ => 0 := funext fun a => by fin_cases a <;> rfl

/-- A `512 × 1024` buffer whose last store was rows 256–511 and the one before it rows 0–255 reads, at row `r`, the
    slab that holds the row — so if both slabs are the matching rows of one function `G`, the buffer is `G`,
    whatever the earlier stores `L` were. -/
theorem canon_slabs {Val : EltTy → Type} [∀ e, Nonempty (Val e)] {e : EltTy}
    (i1 : ∀ a, (![256, 0] : Fin 2 → Nat) a + (![256, 1024] : Fin 2 → Nat) a ≤ S512x1024.size a)
    (i0 : ∀ a, (![0, 0] : Fin 2 → Nat) a + (![256, 1024] : Fin 2 → Nat) a ≤ S512x1024.size a)
    (w1 w0 : S256x1024.Idx → Val e) (L : List (View.Piece Val S512x1024 e)) (G : Fin 512 → Fin 1024 → Val e)
    (h0 : ∀ (r : Fin 256) (q : Fin 1024), w0 (ix2 r q) = G (lo r) q)
    (h1 : ∀ (r : Fin 256) (q : Fin 1024), w1 (ix2 r q) = G (hi r) q) (r : Fin 512) (q : Fin 1024) :
    View.canon (⟨Rect.unit (s := S512x1024) ![256, 0] ![256, 1024] i1, w1⟩ :: ⟨Rect.unit (s := S512x1024) ![0, 0] ![256, 1024] i0, w0⟩ :: L) (ix2 r q) = G r q := by
  by_cases h : r.val < 256
  · have hm : (ix2 r q : S512x1024.Idx) ∉ (⟨Rect.unit (s := S512x1024) ![256, 0] ![256, 1024] i1, w1⟩ : View.Piece Val S512x1024 e).1.set := by
      show (ix2 r q : S512x1024.Idx) ∉ (Rect.unit (s := S512x1024) ![256, 0] ![256, 1024] i1).set
      rw [Rect.mem_set_unit]
      intro hm
      have h256 : 256 ≤ r.val := (hm 0).1
      omega
    rw [View.canon_cons_of_not_mem (⟨Rect.unit (s := S512x1024) ![256, 0] ![256, 1024] i1, w1⟩ : View.Piece Val S512x1024 e) _ hm]
    have e : (ix2 r q : S512x1024.Idx) = (Rect.unit (s := S512x1024) ![0, 0] ![256, 1024] i0).emb (ix2 (⟨r.val, h⟩ : Fin 256) q) :=
      funext fun a => Fin.ext (by
        match a with
        | ⟨0, _⟩ => show r.val = 0 + 1 * r.val; omega
        | ⟨1, _⟩ => show q.val = 0 + 1 * q.val; omega)
    rw [e, View.canon_cons_emb]
    exact h0 ⟨r.val, h⟩ q
  · have h' : r.val - 256 < 256 := by have := r.isLt; omega
    have e : (ix2 r q : S512x1024.Idx) = (Rect.unit (s := S512x1024) ![256, 0] ![256, 1024] i1).emb (ix2 (⟨r.val - 256, h'⟩ : Fin 256) q) :=
      funext fun a => Fin.ext (by
        match a with
        | ⟨0, _⟩ => show r.val = 256 + 1 * (r.val - 256); omega
        | ⟨1, _⟩ => show q.val = 0 + 1 * q.val; omega)
    rw [e, View.canon_cons_emb, h1 ⟨r.val - 256, h'⟩ q]
    exact congrArg (G · q) (Fin.ext (by show 256 + (r.val - 256) = r.val; omega))

section Step

variable (a2 : Memref sig .tc .vmem S1x512x1024 .f32) (h2 : a2.IsWhole) (a3 : Memref sig .tc .vmem S1x1024x1024 .f32) (h3 : a3.IsWhole) (a4 : Memref sig .tc .vmem S1x1024x1024 .f32) (h4 : a4.IsWhole) (a6 : Memref sig .tc .vmem S512x1024 .f32) (h6 : a6.IsWhole)
variable (x0 : Vec Ideal S1x512x1024 .f32) (x1 x2 : Vec Ideal S1x1024x1024 .f32)

/-- The lower slab's new value at `(r, q)`: what it read of the accumulator there plus the tile's share of row `r`. -/
theorem lower_eval (acc : Vec Ideal S256x1024 .f32)
    (i3 i4 : ∀ a, (![0, 0, 0] : Fin 3 → Nat) a + S1x1024x1024.size a ≤ S1x1024x1024.size a)
    (i2 : ∀ a, (![0, 0, 0] : Fin 3 → Nat) a + S1x256x1024.size a ≤ S1x512x1024.size a) (r : Fin 256) (q : Fin 1024) :
    k0_pay1 (k0_pay7 (View.readAt (Elt Ideal) a3.view (Rect.unit (s := S1x1024x1024) ![0, 0, 0] S1x1024x1024.size i3).toLoadRect (h3.unread x1)) (View.readAt (Elt Ideal) a4.view (Rect.unit (s := S1x1024x1024) ![0, 0, 0] S1x1024x1024.size i4).toLoadRect (h4.unread x2))
          (View.readAt (Elt Ideal) a2.view (Rect.unit (s := S1x512x1024) ![0, 0, 0] S1x256x1024.size i2).toLoadRect (h2.unread x0)) acc) (ix2 r q)
      = acc (ix2 r q) + Ffn.tile x0 x1 x2 (lo r) q := by
  simp only [View.readAt_eq_ld, h2.read_unread, h3.read_unread, h4.read_unread, View.ld_unit_zero (S := S1x1024x1024) hz3]
  rw [Tile.same_apply]
  refine (Tile.slab_apply _ _ _ _ r q).trans ?_
  unfold Ffn.tile
  refine congrArg (acc (ix2 r q) + ·) (Finset.sum_congr rfl fun k _ => congrArg (· * _) (congrArg Ffn.act
    (Finset.sum_congr rfl fun d _ => congrArg (· * _) (congrArg x0 ?_))))
  funext a
  apply Fin.ext
  match a with
  | ⟨0, _⟩ => show 0 + 1 * 0 = 0; omega
  | ⟨1, _⟩ => show 0 + 1 * r.val = r.val; omega
  | ⟨2, _⟩ => show 0 + 1 * d.val = d.val; omega

/-- The upper slab's new value at `(r, q)`: what it read of the accumulator there plus the tile's share of row `256 + r`. -/
theorem upper_eval (acc : Vec Ideal S256x1024 .f32)
    (j3 j4 : ∀ a, (![0, 0, 0] : Fin 3 → Nat) a + S1x1024x1024.size a ≤ S1x1024x1024.size a)
    (j2 : ∀ a, (![0, 256, 0] : Fin 3 → Nat) a + (![1, 256, 1024] : Fin 3 → Nat) a ≤ S1x512x1024.size a) (r : Fin 256) (q : Fin 1024) :
    k0_pay2 (k0_pay5 (View.readAt (Elt Ideal) a3.view (Rect.unit (s := S1x1024x1024) ![0, 0, 0] S1x1024x1024.size j3).toLoadRect (h3.unread x1))) (k0_pay6 (View.readAt (Elt Ideal) a4.view (Rect.unit (s := S1x1024x1024) ![0, 0, 0] S1x1024x1024.size j4).toLoadRect (h4.unread x2)))
          (View.readAt (Elt Ideal) a2.view (Rect.unit (s := S1x512x1024) ![0, 256, 0] ![1, 256, 1024] j2).toLoadRect (h2.unread x0)) acc (ix2 r q)
      = acc (ix2 r q) + Ffn.tile x0 x1 x2 (hi r) q := by
  simp only [View.readAt_eq_ld, h2.read_unread, h3.read_unread, h4.read_unread, View.ld_unit_zero (S := S1x1024x1024) hz3]
  refine (Tile.slab'_apply _ _ _ _ r q).trans ?_
  unfold Ffn.tile
  refine congrArg (acc (ix2 r q) + ·) (Finset.sum_congr rfl fun k _ => congrArg (· * _) (congrArg Ffn.act
    (Finset.sum_congr rfl fun d _ => congrArg (· * _) (congrArg x0 ?_))))
  funext a
  apply Fin.ext
  match a with
  | ⟨0, _⟩ => show 0 + 1 * 0 = 0; omega
  | ⟨1, _⟩ => show 256 + 1 * r.val = 256 + r.val; omega
  | ⟨2, _⟩ => show 0 + 1 * d.val = d.val; omega

/-- What a slab reads of an accumulator holding `s`: rows `r` … -/
theorem held_lo (s : Vec Ideal S512x1024 .f32) (i0 : ∀ a, (![0, 0] : Fin 2 → Nat) a + S256x1024.size a ≤ S512x1024.size a)
    (r : Fin 256) (q : Fin 1024) :
    View.readAt (Elt Ideal) a6.view (Rect.unit (s := S512x1024) ![0, 0] S256x1024.size i0).toLoadRect (h6.unread s) (ix2 r q) = s (ix2 (lo r) q) := by
  rw [View.readAt_eq_ld, h6.read_unread]
  refine congrArg s (funext fun a => Fin.ext ?_)
  match a with
  | ⟨0, _⟩ => show 0 + 1 * r.val = r.val; omega
  | ⟨1, _⟩ => show 0 + 1 * q.val = q.val; omega

/-- … and rows `256 + r`. -/
theorem held_hi (s : Vec Ideal S512x1024 .f32) (i1 : ∀ a, (![256, 0] : Fin 2 → Nat) a + (![256, 1024] : Fin 2 → Nat) a ≤ S512x1024.size a)
    (r : Fin 256) (q : Fin 1024) :
    View.readAt (Elt Ideal) a6.view (Rect.unit (s := S512x1024) ![256, 0] ![256, 1024] i1).toLoadRect (h6.unread s) (ix2 r q) = s (ix2 (hi r) q) := by
  rw [View.readAt_eq_ld, h6.read_unread]
  refine congrArg s (funext fun a => Fin.ext ?_)
  match a with
  | ⟨0, _⟩ => show 256 + 1 * r.val = 256 + r.val; omega
  | ⟨1, _⟩ => show 0 + 1 * q.val = q.val; omega

/-- After the reset alone, the lower slab reads the zero word; -/
theorem reset_lo (iz : ∀ a, (![0, 0] : Fin 2 → Nat) a + S512x1024.size a ≤ S512x1024.size a)
    (i0 : ∀ a, (![0, 0] : Fin 2 → Nat) a + S256x1024.size a ≤ S512x1024.size a) (r : Fin 256) (q : Fin 1024) :
    a6.view.readCov [(⟨Rect.unit (s := S512x1024) ![0, 0] S512x1024.size iz, k0_pay4 (F := Ideal)⟩ : View.Piece (Elt Ideal) S512x1024 .f32)]
      (Rect.unit (s := S512x1024) ![0, 0] S256x1024.size i0).toLoadRect (ix2 r q) = Ideal.ofBits .f32 0x00000000#32 := by
  rw [View.readCov_eq_canon', View.canon_unit_zero hz2]
  exact Tile.zeros_apply _

/-- and after the reset and the lower slab's store, the upper slab still reads the zero word: its rows are not the lower slab's. -/
theorem reset_hi (w0 : S256x1024.Idx → Ideal .f32) (iz : ∀ a, (![0, 0] : Fin 2 → Nat) a + S512x1024.size a ≤ S512x1024.size a)
    (i0 : ∀ a, (![0, 0] : Fin 2 → Nat) a + (![256, 1024] : Fin 2 → Nat) a ≤ S512x1024.size a)
    (i1 : ∀ a, (![256, 0] : Fin 2 → Nat) a + (![256, 1024] : Fin 2 → Nat) a ≤ S512x1024.size a) (r : Fin 256) (q : Fin 1024) :
    a6.view.readCov [(⟨Rect.unit (s := S512x1024) ![0, 0] ![256, 1024] i0, w0⟩ : View.Piece (Elt Ideal) S512x1024 .f32), ⟨Rect.unit (s := S512x1024) ![0, 0] S512x1024.size iz, k0_pay4 (F := Ideal)⟩]
      (Rect.unit (s := S512x1024) ![256, 0] ![256, 1024] i1).toLoadRect (ix2 r q) = Ideal.ofBits .f32 0x00000000#32 := by
  rw [View.readCov_eq_canon']
  have hm : (Rect.unit (s := S512x1024) ![256, 0] ![256, 1024] i1).toLoadRect.idx (ix2 r q)
      ∉ (⟨Rect.unit (s := S512x1024) ![0, 0] ![256, 1024] i0, w0⟩ : View.Piece (Elt Ideal) S512x1024 .f32).1.set := by
    show (Rect.unit (s := S512x1024) ![256, 0] ![256, 1024] i1).toLoadRect.idx (ix2 r q) ∉ (Rect.unit (s := S512x1024) ![0, 0] ![256, 1024] i0).set
    rw [Rect.mem_set_unit]
    intro hm
    have h256 : 256 + 1 * r.val < 0 + 256 := (hm 0).2
    omega
  show View.canon _ _ = _
  rw [View.canon_cons_of_not_mem (⟨Rect.unit (s := S512x1024) ![0, 0] ![256, 1024] i0, w0⟩ : View.Piece (Elt Ideal) S512x1024 .f32) _ hm, View.canon_unit_zero hz2]
  exact Tile.zeros_apply _

/-- The accumulator after a step that found it at `s`: `s + tile` at every entry. -/
theorem canon_next (s : Vec Ideal S512x1024 .f32)
    (i1 i1' : ∀ a, (![256, 0] : Fin 2 → Nat) a + (![256, 1024] : Fin 2 → Nat) a ≤ S512x1024.size a)
    (i0 : ∀ a, (![0, 0] : Fin 2 → Nat) a + (![256, 1024] : Fin 2 → Nat) a ≤ S512x1024.size a)
    (i0' : ∀ a, (![0, 0] : Fin 2 → Nat) a + S256x1024.size a ≤ S512x1024.size a)
    (i3 i4 j3 j4 : ∀ a, (![0, 0, 0] : Fin 3 → Nat) a + S1x1024x1024.size a ≤ S1x1024x1024.size a)
    (i2 : ∀ a, (![0, 0, 0] : Fin 3 → Nat) a + S1x256x1024.size a ≤ S1x512x1024.size a)
    (j2 : ∀ a, (![0, 256, 0] : Fin 3 → Nat) a + (![1, 256, 1024] : Fin 3 → Nat) a ≤ S1x512x1024.size a) (r : Fin 512) (q : Fin 1024) :
    View.canon [(⟨Rect.unit (s := S512x1024) ![256, 0] ![256, 1024] i1,
        k0_pay2 (k0_pay5 (View.readAt (Elt Ideal) a3.view (Rect.unit (s := S1x1024x1024) ![0, 0, 0] S1x1024x1024.size j3).toLoadRect (h3.unread x1))) (k0_pay6 (View.readAt (Elt Ideal) a4.view (Rect.unit (s := S1x1024x1024) ![0, 0, 0] S1x1024x1024.size j4).toLoadRect (h4.unread x2)))
          (View.readAt (Elt Ideal) a2.view (Rect.unit (s := S1x512x1024) ![0, 256, 0] ![1, 256, 1024] j2).toLoadRect (h2.unread x0)) (View.readAt (Elt Ideal) a6.view (Rect.unit (s := S512x1024) ![256, 0] ![256, 1024] i1').toLoadRect (h6.unread s))⟩ : View.Piece (Elt Ideal) S512x1024 .f32),
      ⟨Rect.unit (s := S512x1024) ![0, 0] ![256, 1024] i0,
        k0_pay1 (k0_pay7 (View.readAt (Elt Ideal) a3.view (Rect.unit (s := S1x1024x1024) ![0, 0, 0] S1x1024x1024.size i3).toLoadRect (h3.unread x1)) (View.readAt (Elt Ideal) a4.view (Rect.unit (s := S1x1024x1024) ![0, 0, 0] S1x1024x1024.size i4).toLoadRect (h4.unread x2))
          (View.readAt (Elt Ideal) a2.view (Rect.unit (s := S1x512x1024) ![0, 0, 0] S1x256x1024.size i2).toLoadRect (h2.unread x0)) (View.readAt (Elt Ideal) a6.view (Rect.unit (s := S512x1024) ![0, 0] S256x1024.size i0').toLoadRect (h6.unread s)))⟩] (ix2 r q)
      = s (ix2 r q) + Ffn.tile x0 x1 x2 r q :=
  canon_slabs (Val := Elt Ideal) (e := .f32) i1 i0 _ _ [] (fun r q => (s (ix2 r q) + Ffn.tile x0 x1 x2 r q : Ideal .f32))
    (fun r q => (lower_eval a2 h2 a3 h3 a4 h4 x0 x1 x2 _ i3 i4 i2 r q).trans (congrArg (· + _) (held_lo a6 h6 s i0' r q)))
    (fun r q => (upper_eval a2 h2 a3 h3 a4 h4 x0 x1 x2 _ j3 j4 j2 r q).trans (congrArg (· + _) (held_hi a6 h6 s i1' r q))) r q

end Step

/-! ## The three found pieces -/

/-- A step on an expert's first weight tile leaves `0 + tile` in the accumulator. -/
theorem scratch_first (c : Dev nD) (i : grid0.Coords) (a2 : Memref sig .tc .vmem S1x512x1024 .f32) (h2 : a2.IsWhole) (a3 : Memref sig .tc .vmem S1x1024x1024 .f32) (h3 : a3.IsWhole) (a4 : Memref sig .tc .vmem S1x1024x1024 .f32) (h4 : a4.IsWhole) (a5 : Memref sig .tc .vmem S1x512x1024 .f32) (h5 : a5.IsWhole) (a6 : Memref sig .tc .vmem S512x1024 .f32) (h6 : a6.IsWhole) (hc0 : cond0_0 i) (hc1 : ¬cond0_1 i)
    (x0 : Vec Ideal S1x512x1024 .f32) (x1 x2 : Vec Ideal S1x1024x1024 .f32) (r : Fin 512) (q : Fin 1024) :
    sout0_A_0 c i a2 h2 a3 h3 a4 h4 a5 h5 a6 h6 hc0 hc1 x0 x1 x2 (ix2 r q)
      = Ideal.ofBits .f32 0x00000000#32 + Ffn.tile x0 x1 x2 r q := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  refine canon_slabs (Val := Elt Ideal) (e := .f32) _ _ _ _ _ (fun r q => (Ideal.ofBits .f32 0x00000000#32 + Ffn.tile x0 x1 x2 r q : Ideal .f32)) (fun r q => ?_) (fun r q => ?_) r q
  · exact (lower_eval a2 h2 a3 h3 a4 h4 x0 x1 x2 _ _ _ _ r q).trans (congrArg (· + _) (reset_lo a6 _ _ r q))
  · exact (upper_eval a2 h2 a3 h3 a4 h4 x0 x1 x2 _ _ _ _ r q).trans (congrArg (· + _) (reset_hi a6 _ _ _ _ r q))

/-- A step that finds the accumulator at `s` leaves `s + tile` in it. -/
theorem scratch_next (c : Dev nD) (i : grid0.Coords) (a2 : Memref sig .tc .vmem S1x512x1024 .f32) (h2 : a2.IsWhole) (a3 : Memref sig .tc .vmem S1x1024x1024 .f32) (h3 : a3.IsWhole) (a4 : Memref sig .tc .vmem S1x1024x1024 .f32) (h4 : a4.IsWhole) (a5 : Memref sig .tc .vmem S1x512x1024 .f32) (h5 : a5.IsWhole) (a6 : Memref sig .tc .vmem S512x1024 .f32) (h6 : a6.IsWhole) (hc0 : ¬cond0_0 i) (hc1 : cond0_1 i)
    (x0 : Vec Ideal S1x512x1024 .f32) (x1 x2 : Vec Ideal S1x1024x1024 .f32) (s : Vec Ideal S512x1024 .f32) (r : Fin 512) (q : Fin 1024) :
    sout0_B_0 c i a2 h2 a3 h3 a4 h4 a5 h5 a6 h6 hc0 hc1 x0 x1 x2 s (ix2 r q) = s (ix2 r q) + Ffn.tile x0 x1 x2 r q := by
  unfold sout0_B_0
  rw [View.read_writes_eq_canon _ _ _ (scover0_B_0 c i a2 h2 a3 h3 a4 h4 a5 h5 a6 h6 hc0 hc1 x0 x1 x2 s)]
  unfold kernelRun0_B
  dsimp only
  sl_unfold_words
  exact canon_next a2 h2 a3 h3 a4 h4 a6 h6 x0 x1 x2 s _ _ _ _ _ _ _ _ _ _ r q

/-- On an expert's last weight tile the step copies the accumulator, `s + tile`, into the output block. -/
theorem out_next (c : Dev nD) (i : grid0.Coords) (a2 : Memref sig .tc .vmem S1x512x1024 .f32) (h2 : a2.IsWhole) (a3 : Memref sig .tc .vmem S1x1024x1024 .f32) (h3 : a3.IsWhole) (a4 : Memref sig .tc .vmem S1x1024x1024 .f32) (h4 : a4.IsWhole) (a5 : Memref sig .tc .vmem S1x512x1024 .f32) (h5 : a5.IsWhole) (a6 : Memref sig .tc .vmem S512x1024 .f32) (h6 : a6.IsWhole) (hc0 : ¬cond0_0 i) (hc1 : cond0_1 i)
    (x0 : Vec Ideal S1x512x1024 .f32) (x1 x2 : Vec Ideal S1x1024x1024 .f32) (s : Vec Ideal S512x1024 .f32)
    (u : Fin 1) (r : Fin 512) (q : Fin 1024) :
    out0_B_3 c i a2 h2 a3 h3 a4 h4 a5 h5 a6 h6 hc0 hc1 x0 x1 x2 s (ix3 u r q) = s (ix2 r q) + Ffn.tile x0 x1 x2 r q := by
  unfold out0_B_3
  rw [View.read_writes_eq_canon _ _ _ (cover0_B_3 c i a2 h2 a3 h3 a4 h4 a5 h5 a6 h6 hc0 hc1 x0 x1 x2 s)]
  unfold kernelRun0_B
  dsimp only
  sl_unfold_words
  rw [View.canon_unit_zero hz3, Tile.relabel_apply, View.readCov_eq_canon']
  have e : ∀ iw, (Rect.unit (s := S512x1024) ![0, 0] ![512, 1024] iw).toLoadRect.idx (ix2 r q) = ix2 r q := fun iw =>
    funext fun a => Fin.ext (by
      match a with
      | ⟨0, _⟩ => show 0 + 1 * r.val = r.val; omega
      | ⟨1, _⟩ => show 0 + 1 * q.val = q.val; omega)
  show View.canon _ _ = _
  rw [e]
  exact canon_next a2 h2 a3 h3 a4 h4 a6 h6 x0 x1 x2 s _ _ _ _ _ _ _ _ _ _ r q

end Cert.KernelIdeal.Pieces

end
-- ==== Proof.Points.lean ====
/-
  The kernel's output array, entry by entry, as the run over the grid leaves it.

  The grid is 64 experts × 2 weight tiles, walked expert by expert: point `t` is tile `t mod 2` of expert `t / 2`.
  At a point the step holds block `t / 2` of the token rows (all 512 rows of the expert), rows-by-columns tile
  `(t / 2, ·, t mod 2)` of the first weight and tile `(t / 2, t mod 2, ·)` of the second (`x_block`, `w1_block`,
  `w2_block`: a block's entry is the array's entry at block index × block size + the entry's place in the block), so the
  step's tile share is `Ffn.half` of the whole arrays (`tile_eq_half`).
  An even point resets the accumulator and leaves `0 + half 0`; the odd point after it finds exactly that, leaves
  `(0 + half 0) + half 1`, and copies it into the output block, which is written back then (`point_value`).  That block
  is block `t / 2` of the one function `Ffn.out` of the three arrays (`written_back`), every entry of the output array lies in
  the block its expert's odd point writes back (`cover`), and so the array ends holding `Ffn.out` (`final`).
-/
import proofs.«149833_j9139690406408_2_alg».proof.Proof.Gen.KernelIdeal.Frame
import proofs.«149833_j9139690406408_2_alg».proof.Proof.Pieces
import Idealize.ShloMosaic.Lib.Pipeline.Value

noncomputable section

namespace Cert.KernelIdeal.Points

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The windows' block indices at point `t`: expert `t / 2` everywhere, and the weight tile `t mod 2` on the hidden axis. -/
theorem idx_facts : ∀ t : Fin cfg0.N,
    (win0_0.index t (0 : Fin 3) = t.val / 2 ∧ win0_0.index t (1 : Fin 3) = 0 ∧ win0_0.index t (2 : Fin 3) = 0)
    ∧ (win0_1.index t (0 : Fin 3) = t.val / 2 ∧ win0_1.index t (1 : Fin 3) = 0 ∧ win0_1.index t (2 : Fin 3) = t.val % 2)
    ∧ (win0_2.index t (0 : Fin 3) = t.val / 2 ∧ win0_2.index t (1 : Fin 3) = t.val % 2 ∧ win0_2.index t (2 : Fin 3) = 0)
    ∧ (win0_3.index t (0 : Fin 3) = t.val / 2 ∧ win0_3.index t (1 : Fin 3) = 0 ∧ win0_3.index t (2 : Fin 3) = 0) :=
  (by decide +kernel : ∀ t : Fin grid0.N, _)

theorem lt128 (t : Fin cfg0.N) : t.val < 128 := lt_of_lt_of_eq t.isLt (show cfg0.N = 128 from N_0)

/-- The expert a point works for. -/
def expert (t : Fin cfg0.N) : Fin 64 := ⟨t.val / 2, by have := lt128 t; omega⟩

/-- The token block at point `t` is the expert's 512 rows. -/
theorem x_block (c : Dev nD) (t : Fin cfg0.N) (r : Fin 512) (d : Fin 1024) :
    iblk m c 0 t (ix3 (0 : Fin 1) r d) = V m c main_v0 (ix3 (expert t) r d) := by
  obtain ⟨⟨a0, a1, a2⟩, -, -, -⟩ := idx_facts t
  unfold iblk
  rw [View.read_apply]
  show V m c main_v0 (((cfg0.win 0).blk t).view.emb (ix3 (0 : Fin 1) r d)) = V m c main_v0 (ix3 (expert t) r d)
  refine congrArg (V m c main_v0) (funext fun a => Fin.ext ?_)
  match a with
  | ⟨0, _⟩ => show win0_0.index t (0 : Fin 3) * 1 + 1 * 0 = t.val / 2; omega
  | ⟨1, _⟩ => show win0_0.index t (1 : Fin 3) * 512 + 1 * r.val = r.val; omega
  | ⟨2, _⟩ => show win0_0.index t (2 : Fin 3) * 1024 + 1 * d.val = d.val; omega

/-- The first weight's block at point `t`: all 1024 rows, hidden columns of tile `f = t mod 2`. -/
theorem w1_block (c : Dev nD) (t : Fin cfg0.N) (f : Fin 2) (hf : f.val = t.val % 2) (d : Fin 1024) (k : Fin 1024) :
    iblk m c 1 t (ix3 (0 : Fin 1) d k) = V m c main_arg1 (ix3 (expert t) d (Ffn.col f k)) := by
  obtain ⟨-, ⟨a0, a1, a2⟩, -, -⟩ := idx_facts t
  unfold iblk
  rw [View.read_apply]
  show V m c main_arg1 (((cfg0.win 1).blk t).view.emb (ix3 (0 : Fin 1) d k)) = V m c main_arg1 (ix3 (expert t) d (Ffn.col f k))
  refine congrArg (V m c main_arg1) (funext fun a => Fin.ext ?_)
  match a with
  | ⟨0, _⟩ => show win0_1.index t (0 : Fin 3) * 1 + 1 * 0 = t.val / 2; omega
  | ⟨1, _⟩ => show win0_1.index t (1 : Fin 3) * 1024 + 1 * d.val = d.val; omega
  | ⟨2, _⟩ => show win0_1.index t (2 : Fin 3) * 1024 + 1 * k.val = f.val * 1024 + k.val; omega

/-- The second weight's block at point `t`: hidden rows of tile `f = t mod 2`, all 1024 columns. -/
theorem w2_block (c : Dev nD) (t : Fin cfg0.N) (f : Fin 2) (hf : f.val = t.val % 2) (k : Fin 1024) (q : Fin 1024) :
    iblk m c 2 t (ix3 (0 : Fin 1) k q) = V m c main_arg2 (ix3 (expert t) (Ffn.col f k) q) := by
  obtain ⟨-, -, ⟨a0, a1, a2⟩, -⟩ := idx_facts t
  unfold iblk
  rw [View.read_apply]
  show V m c main_arg2 (((cfg0.win 2).blk t).view.emb (ix3 (0 : Fin 1) k q)) = V m c main_arg2 (ix3 (expert t) (Ffn.col f k) q)
  refine congrArg (V m c main_arg2) (funext fun a => Fin.ext ?_)
  match a with
  | ⟨0, _⟩ => show win0_2.index t (0 : Fin 3) * 1 + 1 * 0 = t.val / 2; omega
  | ⟨1, _⟩ => show win0_2.index t (1 : Fin 3) * 1024 + 1 * k.val = f.val * 1024 + k.val; omega
  | ⟨2, _⟩ => show win0_2.index t (2 : Fin 3) * 1024 + 1 * q.val = q.val; omega

/-- So the step's tile share over its blocks is tile `t mod 2`'s share of the expert's output entry over the whole arrays. -/
theorem tile_eq_half (c : Dev nD) (t : Fin cfg0.N) (f : Fin 2) (hf : f.val = t.val % 2) (r : Fin 512) (q : Fin 1024) :
    Ffn.tile (iblk m c 0 t) (iblk m c 1 t) (iblk m c 2 t) r q
      = Ffn.half (V m c main_v0) (V m c main_arg1) (V m c main_arg2) f (expert t) r q := by
  unfold Ffn.tile Ffn.half Ffn.hidden
  exact Finset.sum_congr rfl fun k _ => congrArg₂ (· * ·)
    (congrArg Ffn.act (Finset.sum_congr rfl fun d _ => congrArg₂ (· * ·) (x_block m c t r d) (w1_block m c t f hf d k)))
    (w2_block m c t f hf k q)

/-- What an odd point leaves in the output block: the expert's output entries, the zero word plus both tiles' shares. -/
theorem point_value (c : Dev nD) (t : Fin cfg0.N) (h1 : t.val % 2 = 1) (u : Fin 1) (r : Fin 512) (q : Fin 1024) :
    (outsAt0 m c t.val t.isLt).1 (ix3 u r q)
      = Ffn.outAt (V m c main_v0) (V m c main_arg1) (V m c main_arg2) (expert t) r q := by
  have hN := lt128 t
  have h0 : ¬t.val % 2 = 0 := by omega
  have hp : t.val - 1 < cfg0.N := Nat.lt_of_le_of_lt (Nat.sub_le _ _) t.isLt
  have hp0 : (⟨t.val - 1, hp⟩ : Fin cfg0.N).val % 2 = 0 := by show (t.val - 1) % 2 = 0; omega
  have hp1 : ¬(⟨t.val - 1, hp⟩ : Fin cfg0.N).val % 2 = 1 := by show ¬(t.val - 1) % 2 = 1; omega
  have he : expert ⟨t.val - 1, hp⟩ = expert t := Fin.ext (by show (t.val - 1) / 2 = t.val / 2; omega)
  rw [outsAt0_B m c t h0 h1]
  dsimp only
  refine (Pieces.out_next c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1)
    (iblk m c 0 t) (iblk m c 1 t) (iblk m c 2 t) (outsAt0 m c (t.val - 1) hp).2 u r q).trans ?_
  have hA := outsAt0_A m c ⟨t.val - 1, hp⟩ hp0 hp1
  rw [show outsAt0 m c (t.val - 1) hp = _ from hA]
  dsimp only
  rw [Pieces.scratch_first c (grid0.coords ⟨t.val - 1, hp⟩) (ms0_0 ⟨t.val - 1, hp⟩) (hs0_0 ⟨t.val - 1, hp⟩) (ms0_1 ⟨t.val - 1, hp⟩) (hs0_1 ⟨t.val - 1, hp⟩) (ms0_2 ⟨t.val - 1, hp⟩) (hs0_2 ⟨t.val - 1, hp⟩) (ms0_3 ⟨t.val - 1, hp⟩) (hs0_3 ⟨t.val - 1, hp⟩) scM0_0 (Memref.isWhole_whole _) ((hcond0_0 ⟨t.val - 1, hp⟩).mpr hp0) (fun h => hp1 ((hcond0_1 ⟨t.val - 1, hp⟩).mp h))
    (iblk m c 0 ⟨t.val - 1, hp⟩) (iblk m c 1 ⟨t.val - 1, hp⟩) (iblk m c 2 ⟨t.val - 1, hp⟩) r q]
  rw [tile_eq_half m c ⟨t.val - 1, hp⟩ 0 (by show 0 = (t.val - 1) % 2; omega) r q,
    tile_eq_half m c t 1 (by show 1 = t.val % 2; omega) r q, he]
  rfl

/-- The kernel's output array as one function of the three arrays the region finds. -/
abbrev result (c : Dev nD) : Buf (Elt Ideal) ((c : Thread nD τ).loc main_v1) :=
  Ffn.out (V m c main_v0) (V m c main_arg1) (V m c main_arg2)

/-- What a point writes back is its block of that function. -/
theorem written_back (c : Dev nD) (t : Fin cfg0.N) (hf : (cfg0.win 3).flush t = true) :
    (dats m 0 c).flushed 3 t = ((cfg0.win 3).blk t).view.read (Elt Ideal) (result m c) := by
  have h1 : t.val % 2 = 1 := (flush0_3 t).mp hf
  obtain ⟨-, -, -, ⟨b0, b1, b2⟩⟩ := idx_facts t
  show (cfg0.win 3).cut (grid0.coords t) ((dats m 0 c).after 3 t) = _
  rw [after0_3]
  funext j
  obtain ⟨u, r, q, rfl⟩ : ∃ (u : Fin 1) (r : Fin 512) (q : Fin 1024), j = ix3 u r q := ⟨j 0, j 1, j 2, eq_ix3 j⟩
  show (outsAt0 m c t.val t.isLt).1 (ix3 u r q) = result m c (((cfg0.win 3).blk t).view.emb (ix3 u r q))
  rw [point_value m c t h1 u r q]
  have he : ((cfg0.win 3).blk t).view.emb (ix3 u r q) = ix3 (expert t) r q := funext fun a => Fin.ext (by
    have hu : u.val = 0 := by omega
    match a with
    | ⟨0, _⟩ => show win0_3.index t (0 : Fin 3) * 1 + 1 * u.val = t.val / 2; omega
    | ⟨1, _⟩ => show win0_3.index t (1 : Fin 3) * 512 + 1 * r.val = r.val; omega
    | ⟨2, _⟩ => show win0_3.index t (2 : Fin 3) * 1024 + 1 * q.val = q.val; omega)
  rw [he]
  rfl

/-- An entry of the output array is in point `t`'s block iff each coordinate is in the block's range on its axis. -/
theorem mem_blk (t : Fin cfg0.N) (i : S64x512x1024.Idx) :
    i ∈ ((cfg0.win 3).blk t).view.set ↔ ∀ a : Fin 3, win0_3.index t a * S1x512x1024.size a ≤ (i a).val ∧ (i a).val < win0_3.index t a * S1x512x1024.size a + S1x512x1024.size a := by
  show i ∈ ((View.whole main_v1).slice (win0_3.rect t)).set ↔ _
  rw [View.set_slice_whole, Rect.mem_set_unit]
  exact Iff.rfl

/-- Every entry of the output array is in the block the second point of its expert writes back. -/
theorem cover (i : S64x512x1024.Idx) : ∃ t : Fin cfg0.N, (cfg0.win 3).flush t = true ∧ i ∈ ((cfg0.win 3).blk t).view.set := by
  have h0 : (i 0).val < 64 := (i 0).isLt
  have h1 : (i 1).val < 512 := (i 1).isLt
  have h2 : (i 2).val < 1024 := (i 2).isLt
  obtain ⟨t, ht⟩ : ∃ t : Fin cfg0.N, t.val = 2 * (i 0).val + 1 :=
    ⟨⟨2 * (i 0).val + 1, lt_of_lt_of_eq (by omega : 2 * (i 0).val + 1 < 128) (show 128 = cfg0.N from N_0.symm)⟩, rfl⟩
  obtain ⟨-, -, -, ⟨b0, b1, b2⟩⟩ := idx_facts t
  refine ⟨t, (flush0_3 t).mpr (by omega), ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 512 ≤ (i 1).val ∧ (i 1).val < win0_3.index t (1 : Fin 3) * 512 + 512; omega
  | ⟨2, _⟩ => show win0_3.index t (2 : Fin 3) * 1024 ≤ (i 2).val ∧ (i 2).val < win0_3.index t (2 : Fin 3) * 1024 + 1024; omega

/-- So the output array ends holding `Ffn.out` of the three arrays. -/
theorem final (c : Dev nD) : (dats m 0 c).arrAt 3 cfg0.N = result m c :=
  (dats m 0 c).arrAt_eq_of_cover 3 (result m c) (fun t hf => written_back m c t hf) cover

end Cert.KernelIdeal.Points

end
-- ==== Proof.KRun.lean ====
/-
  The kernel program's run, read: its result array as one function of its three arguments.

  Before the grouped layer the program reshapes the `32768 × 1024` token matrix to `64 × 512 × 1024` (`tokens`); the
  layer's output array ends holding `Ffn.out` of the reshaped tokens and the two weights (Points.lean); afterwards the program
  reshapes that array back to `32768 × 1024`, which is the result (`tail`).  Neither reshape is ever read at an entry: the
  reference performs the same two.
-/
import proofs.«149833_j9139690406408_2_alg».proof.Proof.Gen.KernelIdeal.Frame
import proofs.«149833_j9139690406408_2_alg».proof.Proof.Points
import Idealize.ShloMosaic.Lib.StableHlo.Run
import Idealize.ShloMosaic.Lib.Tactic

noncomputable section

namespace Cert.KernelIdeal.KRun

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The token array the grouped layer finds: the argument, reshaped. -/
theorem tokens (c : Dev nD) :
    (V m c main_v0 : S64x512x1024.Idx → Elt Ideal .f32)
      = shapeCast S64x512x1024 (m ((c : Thread nD τ).loc main_arg0)) shapeCasts_S32768x1024_S64x512x1024 := by
  show StableHlo.after hostOps0 (fun b => m (c, b)) (Proc.devRef .tc main_v0) = _
  after_results
  rfl

/-- The program's result as a function of its three arguments. -/
def value (c : Dev nD) : Buf (Elt Ideal) ((c : Thread nD τ).loc main_v2) :=
  shapeCast S32768x1024
    (Ffn.out (shapeCast S64x512x1024 (m ((c : Thread nD τ).loc main_arg0)) shapeCasts_S32768x1024_S64x512x1024)
      (m ((c : Thread nD τ).loc main_arg1)) (m ((c : Thread nD τ).loc main_arg2)))
    shapeCasts_S64x512x1024_S32768x1024

/-- The array the program returns is the layer's output array, reshaped. -/
theorem tail (c : Dev nD) :
    Pipeline.afterTail₀ cfgs (dats m) 0 (V0 m) [hostOps1] c main_v2 = value m c := by
  unfold Pipeline.afterTail₀
  show StableHlo.after hostOps1 _ (Proc.devRef .tc main_v2) = _
  after_results
  have e : Pipeline.withArrays (cfgs 0).spec c (V0 m c) (fun w => (dats m 0 c).arrAt w (cfgs 0).N) (Proc.tc.devRef main_v1)
      = Points.result m c :=
    (Pipeline.withArrays_arr spec0 launch0.win.arr_inj c (V0 m c) (fun w => (dats m 0 c).arrAt w (cfgs 0).N) 3).trans (Points.final m c)
  rw [e]
  unfold value Points.result
  rw [tokens m c, V_main_arg1 m c, V_main_arg2 m c]
  rfl

/-- Every weakly fair execution of the kernel program terminates with its result array at `value` of the arguments and
    the arguments unchanged: the generated frame run, its post read through the lemmas above. -/
theorem run : θ_run defs (onTc (τ := τ) (main (F := Ideal))) ⟨m, fun _ => 0, ρ⟩ fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v2 (Pipeline.mem_restRefs_of main_v2 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KRun

end
-- ==== Proof.RefSide.lean ====
/-
  The reference's result, entry by entry, is the specification.

  The reference reshapes the token matrix to `64 × 512 × 1024`, takes the batched product with the first weight
  (entry `(e, r, j)` is `Σ_d x[e,r,d] · w1[e,d,j]`: `hidden_stage`), applies the tanh form of GELU through thirteen
  entrywise operations — with the cube grouped `(h · h) · h` — which at every entry is `Ffn.act` of the product's entry
  (`act_stage`), and takes the batched product with the second weight, one sum over all 2048 hidden columns.  That sum is
  `Ffn.out` (`Ffn.outAt_eq_sum`), so the stage before the final reshape is `Ffn.out` of the reshaped tokens and the two
  weights (`out_stage`).
-/
import proofs.«149833_j9139690406408_2_alg».proof.Proof.Gen.ReferenceIdeal.Read
import proofs.«149833_j9139690406408_2_alg».proof.Proof.Spec

noncomputable section

namespace Cert.ReferenceIdeal.RefValue

open Cert.ReferenceIdeal Cert.ReferenceIdeal.Read Idealize.ShloMosaic Idealize.ShloMosaic.ValueIdx

variable (x0 : (⟨S32768x1024, .f32⟩ : BufTy).Contents (Elt Ideal)) (x1 : (⟨S64x1024x2048, .f32⟩ : BufTy).Contents (Elt Ideal))
  (x2 : (⟨S64x2048x1024, .f32⟩ : BufTy).Contents (Elt Ideal))

/-- The activated hidden value at an entry is `Ffn.act` of the first product's entry there. -/
theorem act_stage (p : S64x512x2048.Idx) :
    val_main_v14 (F := Ideal) x0 x1 p = Ffn.act (val_main_v1 (F := Ideal) x0 x1 p) := by
  rw [val_main_v14_apply, val_main_v13_apply, val_main_v12_apply, val_main_cst_2_apply, val_main_v11_apply,
    val_main_v10_apply, val_main_cst_1_apply, val_main_v9_apply, val_main_v8_apply, val_main_v7_apply, val_main_cst_0_apply,
    val_main_v6_apply, val_main_v5_apply, val_main_v4_apply, val_main_cst_apply, val_main_v3_apply, val_main_v2_apply]
  exact Ffn.act_cube_left _

/-- The first product at `(e, r, j)`. -/
theorem hidden_stage (e : Fin 64) (r : Fin 512) (j : Fin 2048) :
    val_main_v1 (F := Ideal) x0 x1 (ix3 e r j) = Ffn.hidden (val_main_v0 (F := Ideal) x0) x1 e r j := by
  rw [val_main_v1_apply]
  unfold Ffn.hidden
  refine Finset.sum_congr rfl fun d _ => congrArg₂ (· * ·) (congrArg _ ?_) (congrArg x1 ?_)
  · exact funext fun a => by match a with | ⟨0, _⟩ => rfl | ⟨1, _⟩ => rfl | ⟨2, _⟩ => rfl
  · exact funext fun a => by match a with | ⟨0, _⟩ => rfl | ⟨1, _⟩ => rfl | ⟨2, _⟩ => rfl

/-- The second product, the stage before the final reshape, is the specification of the reshaped tokens and the weights. -/
theorem out_stage : val_main_v15 (F := Ideal) x0 x1 x2 = Ffn.out (val_main_v0 (F := Ideal) x0) x1 x2 := by
  funext i
  obtain ⟨e, r, q, rfl⟩ : ∃ (e : Fin 64) (r : Fin 512) (q : Fin 1024), i = ix3 e r q := ⟨i 0, i 1, i 2, eq_ix3 i⟩
  rw [Ffn.out_ix3, Ffn.outAt_eq_sum, val_main_v15_apply]
  refine Finset.sum_congr rfl fun j _ => ?_
  have el : lidx_main_v15 (ix3 e r q) j = ix3 e r j :=
    funext fun a => by match a with | ⟨0, _⟩ => rfl | ⟨1, _⟩ => rfl | ⟨2, _⟩ => rfl
  have er : ridx_main_v15 (ix3 e r q) j = ix3 e j q :=
    funext fun a => by match a with | ⟨0, _⟩ => rfl | ⟨1, _⟩ => rfl | ⟨2, _⟩ => rfl
  rw [el, er, act_stage, hidden_stage]

end Cert.ReferenceIdeal.RefValue

end
-- ==== Proof.lean ====
/-
  Sixty-four experts, each a feed-forward layer on its own 512 token rows: `y[e] = gelu (x[e] · w1[e]) · w2[e]` with the tanh form
  of GELU, the rows taken from and returned to one `32768 × 1024` matrix.

  The kernel walks a grid of 64 experts × 2 tiles of the 2048 hidden columns.  Because GELU acts entry by entry, an output entry is the sum
  over hidden columns of `gelu (hidden entry) · w2 entry`, and that sum splits into the two tiles' shares; the kernel resets an accumulator
  at an expert's first tile, adds each tile's share (computed 256 rows at a time), and writes the accumulator out after the second.
  On the extended reals the roundings to the narrower float format are the identity, the kernel's matrix products into a zero accumulator are
  plain sums, and the host's batched products are the same sums, so both programs compute

      out[e, r, q] = Σ_{j < 2048} act (Σ_{d < 1024} x[e, r, d] · w1[e, d, j]) · w2[e, j, q],

  the kernel as `(0 + Σ_{first 1024}) + Σ_{last 1024}`.  The only laws used are associativity and commutativity of `+` (a finite sum
  splits) and associativity of `·` (the cube in GELU is grouped differently in the two programs), which hold at the infinities too: the
  precondition is never opened.

  Spec.lean states the function and the split; Tile.lean and Pieces.lean read one grid step; Points.lean reads the run over the grid;
  KRun.lean reads the kernel program's run with its two reshapes; RefSide.lean reads the reference; here the five claims are assembled.
-/
import proofs.«149833_j9139690406408_2_alg».proof.Defs
import proofs.«149833_j9139690406408_2_alg».proof.Proof.Gen.Kernel
import proofs.«149833_j9139690406408_2_alg».proof.Proof.Gen.Kernel.Frame
import proofs.«149833_j9139690406408_2_alg».proof.Proof.Gen.KernelIdeal
import proofs.«149833_j9139690406408_2_alg».proof.Proof.Gen.KernelIdeal.Frame
import proofs.«149833_j9139690406408_2_alg».proof.Proof.Gen.ReferenceIdeal
import proofs.«149833_j9139690406408_2_alg».proof.Proof.Gen.ReferenceIdeal.Run
import proofs.«149833_j9139690406408_2_alg».proof.Proof.Gen.ReferenceIdeal.Read
import proofs.«149833_j9139690406408_2_alg».proof.Proof.Gen.Pre_finite_inputs
import proofs.«149833_j9139690406408_2_alg».proof.Proof.KRun
import proofs.«149833_j9139690406408_2_alg».proof.Proof.RefSide
import Idealize.ShloMosaic.Adequacy
import Idealize.ShloMosaic.Init

noncomputable section

namespace Cert.Proof

open Idealize.ShloMosaic Idealize.SL.Sem

/-- The three programs run to the end with their arguments unchanged: the two kernel programs by their generated frames,
    the reference by its generated run with the result dropped. -/
theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- On the extended reals both programs end with the same array: the kernel's is the specification of its arguments
    (`KRun.run`), the reference's last stage before its final reshape is the same specification (`RefValue.out_stage`),
    and the arguments agree. -/
theorem algebraic : Cert.algebraic_KernelIdeal_ReferenceIdeal := by
  intro m ρ m' ρ' _ hagree
  refine ⟨fun c => Cert.KernelIdeal.KRun.value m c, Cert.KernelIdeal.KRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v16_eq, (hagree c).1, (hagree c).2.1, (hagree c).2.2]
  unfold Cert.ReferenceIdeal.Read.val_main_v16 Cert.KernelIdeal.KRun.value
  rw [Cert.ReferenceIdeal.RefValue.out_stage]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
